-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x1024x1024 : Shape := ⟨4, ![64, 1, 1024, 1024]⟩
abbrev S_ : Shape := ⟨0, ![]⟩

class Facts : Prop where
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_
  h_S_ : 0 < S_.numel

variable [Facts]

def fn {F : FTy → Type} [FloatOps F] (main_arg0 : FVec F S64x1x1024x1024 .f32) (main_arg1 : IVec S64x1x1024x1024 32) : IVec S_ 1 :=
  let main_v0 : FVec F S64x1x1024x1024 .f32 := Host.absf main_arg0
  let main_cst : FVec F S_ .f32 := constant S_ .f32 0x7F800000#32
  let main_v1 : FVec F S64x1x1024x1024 .f32 := broadcastInDim S64x1x1024x1024 ![] bcast_S_S64x1x1024x1024 main_cst
  let main_v2 : IVec S64x1x1024x1024 1 := cmpf .olt main_v0 main_v1
  let main_c : IVec S_ 1 := constantI S_ 1 1#1
  let main_v3 : IVec S_ 1 := (fun x v => Host.reduce IntOp.andi x v reducesTo_S64x1x1024x1024_S_d0_1_2_3 h_S_) main_v2 main_c
  main_v3
-- ==== Kernel.lean ====
abbrev S64x1x1024x1024 : Shape := ⟨4, ![64, 1, 1024, 1024]⟩
abbrev S65536x1024 : Shape := ⟨2, ![65536, 1024]⟩
abbrev S1x1 : Shape := ⟨2, ![1, 1]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S64x1x1024x1024, .f32⟩
  | .hbm, ⟨1, _⟩ => ⟨S64x1x1024x1024, .i32⟩
  | .hbm, ⟨2, _⟩ => ⟨S65536x1024, .f32⟩
  | .hbm, ⟨3, _⟩ => ⟨S65536x1024, .i32⟩
  | .hbm, ⟨4, _⟩ => ⟨S1x1, .f32⟩
  | .hbm, ⟨5, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1x1, .f32⟩
  | .local _ .vmem, ⟨5, _⟩ => ⟨S1x1, .f32⟩
  | _, _ => ⟨S64x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x1x1024x1024_S65536x1024 : S64x1x1024x1024.ShapeCasts S65536x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .i32 = 32 ∨ (Rect.block (s := S65536x1024) S1024x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1x1024x1024 : Shape := ⟨4, ![64, 1, 1024, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S64x1x1024x1024, .f32⟩
  | .hbm, ⟨1, _⟩ => ⟨S64x1x1024x1024, .i32⟩
  | .hbm, ⟨2, _⟩ => ⟨S64x1x1024x1024, .f32⟩
  | .hbm, ⟨3, _⟩ => ⟨S64x1x1024x1024, .f32⟩
  | .hbm, ⟨4, _⟩ => ⟨S_, .f32⟩
  | .hbm, ⟨5, _⟩ => ⟨S64x1x1024x1024, .f32⟩
  | .hbm, ⟨6, _⟩ => ⟨S64x1x1024x1024, .f32⟩
  | .hbm, ⟨7, _⟩ => ⟨S_, .f32⟩
  | .hbm, ⟨8, _⟩ => ⟨S64x1x1024x1024, .f32⟩
  | .hbm, ⟨9, _⟩ => ⟨S64x1x1024x1024, .f32⟩
  | .hbm, ⟨10, _⟩ => ⟨S_, .i32⟩
  | .hbm, ⟨11, _⟩ => ⟨S64x1x1024x1024, .i32⟩
  | .hbm, ⟨12, _⟩ => ⟨S64x1x1024x1024, .i1⟩
  | .hbm, ⟨13, _⟩ => ⟨S_, .f32⟩
  | .hbm, ⟨14, _⟩ => ⟨S64x1x1024x1024, .f32⟩
  | .hbm, ⟨15, _⟩ => ⟨S64x1x1024x1024, .f32⟩
  | .hbm, ⟨16, _⟩ => ⟨S_, .f32⟩
  | .hbm, ⟨17, _⟩ => ⟨S64x1x1024x1024, .f32⟩
  | .hbm, ⟨18, _⟩ => ⟨S64x1x1024x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S64x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_call0_v0 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_
  h_S_ : 0 < S_.numel

variable [Facts₀]

class Facts : Prop extends Facts₀ where

variable [Facts]
-- ==== Proof.CaseValues.lean ====
/-
  What one run of the kernel body leaves behind, as values, in each of its three control cases.

  The body keeps a running total in a one-element scratch buffer. At the first grid point it stores zero there, reads
  it back and adds the block's contribution; at every later point it adds the block's contribution to what the point
  before left; at the last point it also stores the total times a constant into the output's block. In each case the
  last store into a buffer covers the whole (one-element) buffer, so what the buffer holds afterwards is that store's
  value, a pure function of the two input blocks and of the scratch's previous contents.
-/
import proofs.«158578_j58703613002104_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem origin2 : (![0, 0] : Fin 2 → Nat) = fun _ => 0 := funext fun a => by fin_cases a <;> rfl

/-- A middle point: the scratch ends at the accumulation step applied to its previous contents `xs0`. -/
theorem scratch_B (c : Dev nD) (i : grid0.Coords) (a1 : Memref sig .tc .vmem S1024x1024 .f32) (h1 : a1.IsWhole)
    (a2 : Memref sig .tc .vmem S1024x1024 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S1024x1024 .f32) (x1 : Vec F S1024x1024 .i32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero origin2]
  simp only [View.readAt_eq_ld, h1.read_unread, h2.read_unread, h4.read_unread,
    View.ld_unit_zero (S := S1024x1024) origin2, View.ld_unit_zero (S := S1x1) origin2]

/-- The first point: the scratch ends at the accumulation step applied to the zero the point itself stored. -/
theorem scratch_A (c : Dev nD) (i : grid0.Coords) (a1 : Memref sig .tc .vmem S1024x1024 .f32) (h1 : a1.IsWhole)
    (a2 : Memref sig .tc .vmem S1024x1024 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S1024x1024 .f32) (x1 : Vec F S1024x1024 .i32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) origin2, View.readCov_unit_zero (S := S1x1) _ origin2]
  simp only [View.readAt_eq_ld, h1.read_unread, h2.read_unread,
    View.ld_unit_zero (S := S1024x1024) origin2]

/-- The last point: the scratch ends as at a middle point, -/
theorem scratch_C (c : Dev nD) (i : grid0.Coords) (a1 : Memref sig .tc .vmem S1024x1024 .f32) (h1 : a1.IsWhole)
    (a2 : Memref sig .tc .vmem S1024x1024 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S1024x1024 .f32) (x1 : Vec F S1024x1024 .i32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero (S := S1x1) origin2]
  simp only [View.readAt_eq_ld, h1.read_unread, h2.read_unread, h4.read_unread,
    View.ld_unit_zero (S := S1024x1024) origin2, View.ld_unit_zero (S := S1x1) origin2]

/-- and the output's block at the scaling step applied to that. -/
theorem output_C (c : Dev nD) (i : grid0.Coords) (a1 : Memref sig .tc .vmem S1024x1024 .f32) (h1 : a1.IsWhole)
    (a2 : Memref sig .tc .vmem S1024x1024 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S1024x1024 .f32) (x1 : Vec F S1024x1024 .i32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero (S := S1x1) origin2, View.readCov_unit_zero (S := S1x1) _ origin2]
  simp only [View.readAt_eq_ld, h1.read_unread, h2.read_unread, h4.read_unread,
    View.ld_unit_zero (S := S1024x1024) origin2, View.ld_unit_zero (S := S1x1) origin2]

end Cert.KernelIdeal.CaseValues

end
-- ==== Proof.LossSum.lean ====
/-
  The mathematics both programs compute, with no program in sight.

  Each element contributes `1 - σ(x)` where its target word is 1 and the constant 0.1 elsewhere (σ the logistic
  function on the extended reals). One program adds the contributions block by block — 64 blocks of 1024 rows of
  the 65536 × 1024 array — and multiplies the total by 2⁻²⁶; the other adds all 2²⁶ contributions at once and divides
  by 2²⁶. Addition of extended reals is commutative and associative, so the grouping of the sum does not matter, and
  dividing by the real 2²⁶ is multiplying by its reciprocal on every extended real, the infinities included: the two
  results are equal with no finiteness assumption.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.WeightedLoss

/-- The array as the kernel sees it: 65536 rows of 1024. -/
abbrev Rows : Shape := ⟨2, ![65536, 1024]⟩
/-- One block: 1024 rows of 1024. -/
abbrev Blk : Shape := ⟨2, ![1024, 1024]⟩
/-- The array as the arguments have it. -/
abbrev Full : Shape := ⟨4, ![64, 1, 1024, 1024]⟩

/-! ## The three words whose values matter -/

/-- The word of `1.0` denotes 1. -/
theorem one_word : Ideal.ofBits .f32 0x3F800000#32 = 1 := by
  simp [Ideal.ofBits, Ideal.ieee, -EReal.coe_mul]; norm_num

/-- The word `0x4C800000` denotes 2²⁶ = 67108864, the number of elements. -/
theorem count_word : Ideal.ofBits .f32 0x4C800000#32 = ((67108864 : ℝ) : EReal) := by
  simp [Ideal.ofBits, Ideal.ieee, -EReal.coe_mul]; norm_num

/-- The word `0x32800000` denotes 2⁻²⁶, exactly the reciprocal of the number of elements. -/
theorem inv_count_word : Ideal.ofBits .f32 0x32800000#32 = ((1 / 67108864 : ℝ) : EReal) := by
  simp [Ideal.ofBits, Ideal.ieee, -EReal.coe_mul]; norm_num

/-- Multiplying by 2⁻²⁶ is dividing by 2²⁶, on every extended real. -/
theorem scale_eq (s : EReal) :
    s * Ideal.ofBits .f32 0x32800000#32 = Ideal.div s (Ideal.ofBits .f32 0x4C800000#32) := by
  rw [inv_count_word, count_word, Ideal.div_coe (by norm_num : (67108864 : ℝ) ≠ 0)]

/-! ## One element's contribution -/

/-- `1 - σ(x)` where the target word is 1, the constant 0.1 elsewhere. -/
def lossAt (x : EReal) (t : BitVec 32) : EReal :=
  Scalar.select (IntOp.cmpi .eq t 1#32) (1 - Ideal.logistic x) (Ideal.ofBits .f32 0x3DCCCCCD#32)

/-- With the logistic function as one operation and `1.0` as its word. -/
theorem lossAt_logistic (x : EReal) (t : BitVec 32) :
    Scalar.select (IntOp.cmpi .eq t 1#32) (Ideal.ofBits .f32 0x3F800000#32 - Ideal.logistic x)
      (Ideal.ofBits .f32 0x3DCCCCCD#32) = lossAt x t := by
  rw [one_word]; rfl

/-- With the logistic function spelt out, `1 / (1 + e⁻ˣ)`, over the word of `1.0`. -/
theorem lossAt_expanded (x : EReal) (t : BitVec 32) :
    Scalar.select (IntOp.cmpi .eq t 1#32)
      (Ideal.ofBits .f32 0x3F800000#32
        - Ideal.div (Ideal.ofBits .f32 0x3F800000#32) (Ideal.ofBits .f32 0x3F800000#32 + Ideal.exp (-x)))
      (Ideal.ofBits .f32 0x3DCCCCCD#32) = lossAt x t := by
  rw [one_word]; rfl

/-! ## The rows in blocks -/

/-- Row `r` of block `t` is row `1024 t + r` of the array; the column is kept. -/
def blockIdx (t : Fin 64) (y : Blk.Idx) : Rows.Idx :=
  ix2 (⟨t.val * 1024 + (y 0).val, by have := t.isLt; have := idx2_lt0 y; omega⟩ : Fin 65536) (y 1)

theorem blockIdx_row (t : Fin 64) (y : Blk.Idx) : (blockIdx t y 0).val = t.val * 1024 + (y 0).val := rfl
theorem blockIdx_col (t : Fin 64) (y : Blk.Idx) : (blockIdx t y 1).val = (y 1).val := rfl

/-- Every row lies in exactly one block: row `i` is row `i % 1024` of block `i / 1024`. -/
def blockEquiv : Fin 64 × Blk.Idx ≃ Rows.Idx where
  toFun p := blockIdx p.1 p.2
  invFun i := ((⟨(i 0).val / 1024, by have := idx2_lt0 i; omega⟩ : Fin 64),
    ix2 (⟨(i 0).val % 1024, Nat.mod_lt _ (by norm_num)⟩ : Fin 1024) (i 1))
  left_inv := by
    rintro ⟨t, y⟩
    have h0 := idx2_lt0 y
    refine Prod.ext (Fin.ext ?_) (funext fun a => ?_)
    · show (t.val * 1024 + (y 0).val) / 1024 = t.val
      omega
    · match a with
      | ⟨0, _⟩ => exact Fin.ext (show (t.val * 1024 + (y 0).val) % 1024 = (y 0).val by omega)
      | ⟨1, _⟩ => rfl
  right_inv := by
    intro i
    funext a
    match a with
    | ⟨0, _⟩ => exact Fin.ext (show (i 0).val / 1024 * 1024 + (i 0).val % 1024 = (i 0).val by omega)
    | ⟨1, _⟩ => rfl

/-- A sum over the array is the sum over the blocks of the sums over each block. -/
theorem sum_rows_by_blocks (g : Rows.Idx → EReal) :
    ∑ i, g i = ∑ t : Fin 64, ∑ y : Blk.Idx, g (blockIdx t y) := by
  rw [← Equiv.sum_comp blockEquiv g, Fintype.sum_prod_type]
  rfl

/-! ## The law that joins the two programs -/

/-- The block-by-block total of the contributions of the re-laid arrays, times 2⁻²⁶, is the total over the arrays as
    given, from zero, divided by 2²⁶. A re-laying is a bijection of the indices, so it does not change the sum. -/
theorem blocks_scaled_eq_mean (h : Full.ShapeCasts Rows) (a0 : Full.Idx → EReal) (a1 : Full.Idx → BitVec 32) :
    (∑ t : Fin 64, ∑ y : Blk.Idx,
        lossAt (shapeCast Rows a0 h (blockIdx t y)) (shapeCast Rows a1 h (blockIdx t y)))
      * Ideal.ofBits .f32 0x32800000#32
    = Ideal.div (Ideal.ofBits .f32 0x00000000#32 + ∑ j : Full.Idx, lossAt (a0 j) (a1 j))
        (Ideal.ofBits .f32 0x4C800000#32) := by
  rw [scale_eq, Ideal.ofBits_zero_f32, zero_add,
    ← sum_rows_by_blocks (fun i => lossAt (shapeCast Rows a0 h i) (shapeCast Rows a1 h i))]
  have e : ∑ i : Rows.Idx, lossAt (shapeCast Rows a0 h i) (shapeCast Rows a1 h i)
      = ∑ j : Full.Idx, lossAt (a0 j) (a1 j) :=
    Equiv.sum_comp (Shape.reshapeEquiv h) (fun j => lossAt (a0 j) (a1 j))
  rw [e]

end Cert.WeightedLoss

end
-- ==== Proof.StepValues.lean ====
/-
  The body's three pure steps read as extended reals: the zero the first point stores, the accumulation step (the
  scratch's previous value plus the total of the block's contributions) and the scaling step (times the word of 2⁻²⁶).
-/
import proofs.«158578_j58703613002104_1_alg».proof.Proof.Gen.KernelIdeal.Skeleton
import proofs.«158578_j58703613002104_1_alg».proof.Proof.LossSum
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.StepValues

open Cert.KernelIdeal Cert.KernelIdeal.Gen Cert.WeightedLoss

/-- The zero block is zero. -/
theorem zero_apply (y : S1x1.Idx) : k0_pay1 (F := Ideal) y = 0 := by
  unfold k0_pay1
  simp only [shapeCast_self]
  exact Ideal.ofBits_zero_f32

/-- A reduction of a [1, 1024, 1024] vector over its two long axes is the sum of all its entries. -/
theorem total_apply (v : FVec Ideal S1x1024x1024 .f32) (h : S1x1024x1024.Reduces [1, 2] S1) (hφ : FKind.Formats .f32)
    (hacc : (0x00000000#32 : BitVec 32) = FKind.add.neutral .f32 hφ) (j : S1.Idx) :
    multiReduction .add [1, 2] S1 v 0x00000000#32 h hφ hacc j = ∑ i : S1x1024x1024.Idx, v i :=
  Ideal.multiReduction_add_total v _ h (fun b => match b with | ⟨0, _⟩ => rfl) hφ hacc j

/-- A re-laid vector read at an index is the vector read at the matching index. -/
theorem shapeCast_at {α : Type} {s t : Shape} (x : s.Idx → α) (h : s.ShapeCasts t) (j : t.Idx) :
    shapeCast t x h j = x (Shape.reshapeEquiv h j) := rfl

/-- Re-laying a vector does not change the sum of its entries: the matching of indices is a bijection. -/
theorem sum_shapeCast {s t : Shape} (h : s.ShapeCasts t) (v : s.Idx → EReal) :
    ∑ i : t.Idx, shapeCast t v h i = ∑ z : s.Idx, v z :=
  Equiv.sum_comp (Shape.reshapeEquiv h) v

/-- The block's total as the body computes it — the block re-laid as [1, 1024, 1024], reduced over its two long axes,
    the one entry extracted and splat — is the sum of the block's entries. -/
theorem splat_total_apply (v : FVec Ideal S1024x1024 .f32) (hc : S1024x1024.ShapeCasts S1x1024x1024)
    (hr : S1x1024x1024.Reduces [1, 2] S1) (hφ : FKind.Formats .f32)
    (hacc : (0x00000000#32 : BitVec 32) = FKind.add.neutral .f32 hφ) (hc' : S1.ShapeCasts S1x1x1)
    (hp : ∀ a, (![0, 0, 0] : Fin 3 → Nat) a < S1x1x1.size a) (y : S1x1.Idx) :
    broadcast S1x1 (extractAt ![0, 0, 0]
      (shapeCast S1x1x1 (multiReduction .add [1, 2] S1 (shapeCast S1x1024x1024 v hc) 0x00000000#32 hr hφ hacc) hc') hp) y
      = ∑ z : S1024x1024.Idx, v z := by
  rw [broadcast_apply]
  unfold extractAt
  rw [shapeCast_at]
  exact (total_apply _ hr hφ hacc _).trans (sum_shapeCast hc v)

/-- The selected block holds, at every index, that element's contribution. -/
theorem contribution_apply (x0 : Vec Ideal S1024x1024 .f32) (x1 : Vec Ideal S1024x1024 .i32) (z : S1024x1024.Idx) :
    select (cmpi .eq x1 (broadcast S1024x1024 1#32))
        (subf (broadcast S1024x1024 (Scalar.ofBits (F := Ideal) .f32 0x3F800000#32)) (logistic x0))
        (broadcast S1024x1024 (Scalar.ofBits (F := Ideal) .f32 0x3DCCCCCD#32)) z
      = lossAt (x0 z) (x1 z) :=
  lossAt_logistic (x0 z) (x1 z)

/-- The accumulation step: the scratch's previous value plus the total of the block's contributions. -/
theorem accumulate_apply (x0 : Vec Ideal S1024x1024 .f32) (x1 : Vec Ideal S1024x1024 .i32) (xs : Vec Ideal S1x1 .f32)
    (y : S1x1.Idx) :
    k0_pay2 (F := Ideal) x0 x1 xs y = xs y + ∑ z : S1024x1024.Idx, lossAt (x0 z) (x1 z) := by
  unfold k0_pay2
  simp only [shapeCast_self]
  refine congrArg (xs y + ·) ?_
  refine (splat_total_apply _ shapeCasts_S1024x1024_S1x1024x1024 reduces_S1x1024x1024_S1 (.inl rfl) rfl
    shapeCasts_S1_S1x1x1 inpos_S1x1x1_p0_0_0 y).trans ?_
  exact Finset.sum_congr rfl fun z _ => contribution_apply x0 x1 z

/-- The scaling step: times the word of 2⁻²⁶. -/
theorem scale_apply (v : Vec Ideal S1x1 .f32) (y : S1x1.Idx) :
    k0_pay3 (F := Ideal) v y = v y * Ideal.ofBits .f32 0x32800000#32 := by
  unfold k0_pay3
  rfl

end Cert.KernelIdeal.StepValues

end
-- ==== Proof.KernelValue.lean ====
/-
  The kernel's result as one function of the argument arrays.

  The region finds each argument re-laid as 65536 rows of 1024. Grid point `t` reads rows `1024 t … 1024 t + 1023` of
  both. The one-element scratch buffer, zeroed at the first point, holds after point `n` the total of the
  contributions of blocks `0 … n` (by induction on the point: each point adds its own block's total to what the point
  before left). The output's one block is stored, and written back, at the last point only, with the grand total times
  the word of 2⁻²⁶; that block is the whole 1 × 1 output array, which the program finally re-lays as a scalar.
-/
import proofs.«158578_j58703613002104_1_alg».proof.Proof.CaseValues
import proofs.«158578_j58703613002104_1_alg».proof.Proof.StepValues
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open scoped BigOperators

namespace Cert.KernelIdeal.KernelValue

open Cert.KernelIdeal Cert.KernelIdeal.Gen Cert.WeightedLoss

variable (m : (ℓ : Loc nD τ sig) → Buf (Elt Ideal) ℓ) (ρ : Dev nD → PrngReg)

/-! ## The arrays the region finds, and their blocks -/

/-- The float argument, re-laid as 65536 rows of 1024. -/
theorem entry_v0 (c : Dev nD) :
    (V m c main_v0 : S65536x1024.Idx → EReal)
      = shapeCast (s := S64x1x1024x1024) S65536x1024 (m ((c : Thread nD τ).loc main_arg0))
          shapeCasts_S64x1x1024x1024_S65536x1024 := by
  show StableHlo.after hostOps0 (fun b => m (c, b)) (Proc.devRef .tc main_v0) = _
  after_results
  rfl

/-- The integer argument, re-laid the same way. -/
theorem entry_v1 (c : Dev nD) :
    (V m c main_v1 : S65536x1024.Idx → BitVec 32)
      = shapeCast (s := S64x1x1024x1024) S65536x1024 (m ((c : Thread nD τ).loc main_arg1))
          shapeCasts_S64x1x1024x1024_S65536x1024 := by
  show StableHlo.after hostOps0 (fun b => m (c, b)) (Proc.devRef .tc main_v1) = _
  after_results
  rfl

/-- A grid point as a number below 64. -/
def pt (t : Fin cfg0.N) : Fin 64 := ⟨t.val, lt_of_lt_of_eq t.isLt N_0⟩

/-- Both inputs' block at point `t` is block `(t, 0)`. -/
theorem index_facts : ∀ t : Fin cfg0.N,
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0)

/-- Entry `y` of the float input's block at point `t` is the re-laid argument at row `1024 t + y₀`, column `y₁`. -/
theorem block0_apply (c : Dev nD) (t : Fin cfg0.N) (y : S1024x1024.Idx) :
    (iblk m c 0 t : Vec Ideal S1024x1024 .f32) y
      = shapeCast (s := S64x1x1024x1024) S65536x1024 (m ((c : Thread nD τ).loc main_arg0))
          shapeCasts_S64x1x1024x1024_S65536x1024 (blockIdx (pt t) y) := by
  unfold iblk
  rw [View.read_apply]
  show (V m c main_v0 : S65536x1024.Idx → EReal) _ = _
  rw [entry_v0]
  refine congrArg (shapeCast (s := S64x1x1024x1024) S65536x1024 _ _) ?_
  funext a
  apply Fin.ext
  match a with
  | ⟨0, _⟩ =>
    show win0_0.index t 0 * 1024 + 1 * (y 0).val = t.val * 1024 + (y 0).val
    rw [(index_facts t).1]; omega
  | ⟨1, _⟩ =>
    show win0_0.index t 1 * 1024 + 1 * (y 1).val = (y 1).val
    rw [(index_facts t).2.1]; omega

/-- The same for the integer input. -/
theorem block1_apply (c : Dev nD) (t : Fin cfg0.N) (y : S1024x1024.Idx) :
    (iblk m c 1 t : Vec Ideal S1024x1024 .i32) y
      = shapeCast (s := S64x1x1024x1024) S65536x1024 (m ((c : Thread nD τ).loc main_arg1))
          shapeCasts_S64x1x1024x1024_S65536x1024 (blockIdx (pt t) y) := by
  unfold iblk
  rw [View.read_apply]
  show (V m c main_v1 : S65536x1024.Idx → BitVec 32) _ = _
  rw [entry_v1]
  refine congrArg (shapeCast (s := S64x1x1024x1024) S65536x1024 _ _) ?_
  funext a
  apply Fin.ext
  match a with
  | ⟨0, _⟩ =>
    show win0_1.index t 0 * 1024 + 1 * (y 0).val = t.val * 1024 + (y 0).val
    rw [(index_facts t).2.2.1]; omega
  | ⟨1, _⟩ =>
    show win0_1.index t 1 * 1024 + 1 * (y 1).val = (y 1).val
    rw [(index_facts t).2.2.2]; omega

/-! ## The running total -/

/-- The total of one block's contributions, as a function of the two blocks. -/
def blockSum (x0 : Vec Ideal S1024x1024 .f32) (x1 : Vec Ideal S1024x1024 .i32) : EReal :=
  ∑ z : S1024x1024.Idx, lossAt (x0 z) (x1 z)

/-- The total of block `k`'s contributions (zero past the grid). -/
def blockTotal (c : Dev nD) (k : ℕ) : EReal :=
  if h : k < cfg0.N then blockSum (iblk m c 0 ⟨k, h⟩) (iblk m c 1 ⟨k, h⟩) else 0

/-- The total of the contributions of blocks `0 … n`. -/
def running (c : Dev nD) (n : ℕ) : EReal := ∑ k ∈ Finset.range (n + 1), blockTotal m c k

/-- After the first point the scratch holds the accumulation step applied to the zero block. -/
theorem scratch_first (c : Dev nD) (h0 : 0 < cfg0.N) :
    (outsAt0 m c 0 h0).2 = k0_pay2 (iblk m c 0 ⟨0, h0⟩) (iblk m c 1 ⟨0, h0⟩) (k0_pay1 (F := Ideal)) :=
  (congrArg Prod.snd (outsAt0_A m c ⟨0, h0⟩ (Nat.zero_mod _) (by decide : ¬(0 : ℕ) % 64 = 63))).trans
    (CaseValues.scratch_A (F := Ideal) c (grid0.coords ⟨0, h0⟩) (ms0_0 ⟨0, h0⟩) (hs0_0 ⟨0, h0⟩) (ms0_1 ⟨0, h0⟩)
      (hs0_1 ⟨0, h0⟩) (ms0_2 ⟨0, h0⟩) (hs0_2 ⟨0, h0⟩) scM0_0 (Memref.isWhole_whole _)
      ((hcond0_0 ⟨0, h0⟩).mpr (Nat.zero_mod _)) (fun h => (by decide : ¬(0 : ℕ) % 64 = 63) ((hcond0_1 ⟨0, h0⟩).mp h))
      (iblk m c 0 ⟨0, h0⟩) (iblk m c 1 ⟨0, h0⟩))

/-- After every later point it holds the accumulation step applied to what the point before left. -/
theorem scratch_step (c : Dev nD) (n : ℕ) (hn : n + 1 < cfg0.N) :
    (outsAt0 m c (n + 1) hn).2
      = k0_pay2 (iblk m c 0 ⟨n + 1, hn⟩) (iblk m c 1 ⟨n + 1, hn⟩) (outsAt0 m c n (Nat.lt_of_succ_lt hn)).2 := by
  have hN : cfg0.N = 64 := N_0
  have h0 : ¬(⟨n + 1, hn⟩ : Fin cfg0.N).val % 64 = 0 := by dsimp only; omega
  by_cases h1 : (⟨n + 1, hn⟩ : Fin cfg0.N).val % 64 = 63
  · exact (congrArg Prod.snd (outsAt0_C m c ⟨n + 1, hn⟩ h0 h1)).trans
      (CaseValues.scratch_C (F := Ideal) c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) scM0_0 (Memref.isWhole_whole _)
        (fun h => h0 ((hcond0_0 ⟨n + 1, hn⟩).mp h)) ((hcond0_1 ⟨n + 1, hn⟩).mpr h1)
        (iblk m c 0 ⟨n + 1, hn⟩) (iblk m c 1 ⟨n + 1, hn⟩) (outsAt0 m c n (Nat.lt_of_succ_lt hn)).2)
  · exact (congrArg Prod.snd (outsAt0_B m c ⟨n + 1, hn⟩ h0 h1)).trans
      (CaseValues.scratch_B (F := Ideal) c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) scM0_0 (Memref.isWhole_whole _)
        (fun h => h0 ((hcond0_0 ⟨n + 1, hn⟩).mp h)) (fun h => h1 ((hcond0_1 ⟨n + 1, hn⟩).mp h))
        (iblk m c 0 ⟨n + 1, hn⟩) (iblk m c 1 ⟨n + 1, hn⟩) (outsAt0 m c n (Nat.lt_of_succ_lt hn)).2)

/-- So after point `n` the scratch's one entry is the total of the contributions of blocks `0 … n`. -/
theorem scratch_eq (c : Dev nD) : ∀ (n : ℕ) (hn : n < cfg0.N) (y : S1x1.Idx), (outsAt0 m c n hn).2 y = running m c n
  | 0, hn, y => by
    rw [scratch_first m c hn]
    refine (StepValues.accumulate_apply (iblk m c 0 ⟨0, hn⟩) (iblk m c 1 ⟨0, hn⟩) (k0_pay1 (F := Ideal)) y).trans ?_
    rw [StepValues.zero_apply, zero_add]
    unfold running blockTotal
    rw [Finset.sum_range_one, dif_pos hn]
    rfl
  | n + 1, hn, y => by
    rw [scratch_step m c n hn]
    refine (StepValues.accumulate_apply (iblk m c 0 ⟨n + 1, hn⟩) (iblk m c 1 ⟨n + 1, hn⟩)
      (outsAt0 m c n (Nat.lt_of_succ_lt hn)).2 y).trans ?_
    rw [scratch_eq c n (Nat.lt_of_succ_lt hn) y]
    unfold running
    rw [Finset.sum_range_succ (fun k => blockTotal m c k) (n + 1)]
    refine congrArg (_ + ·) ?_
    unfold blockTotal
    rw [dif_pos hn]
    rfl

/-! ## The output -/

/-- The mean as the kernel computes it: the grand total times the word of 2⁻²⁶. -/
def mean (c : Dev nD) : EReal := running m c 63 * Ideal.ofBits .f32 0x32800000#32

/-- At the last point the output's block holds that mean. -/
theorem output_last (c : Dev nD) (t : Fin cfg0.N) (h63 : t.val % 64 = 63) (y : S1x1.Idx) :
    (outsAt0 m c t.val t.isLt).1 y = mean m c := by
  have hN : cfg0.N = 64 := N_0
  have ht : t.val = 63 := by have := t.isLt; omega
  have h0 : ¬t.val % 64 = 0 := by omega
  have eC := outsAt0_C m c t h0 h63
  have e1 := (congrArg Prod.fst eC).trans
    (CaseValues.output_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h63)
      (iblk m c 0 t) (iblk m c 1 t) (outsAt0 m c (t.val - 1) (Nat.lt_of_le_of_lt (Nat.sub_le _ _) t.isLt)).2)
  have e2 := (congrArg Prod.snd eC).trans
    (CaseValues.scratch_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h63)
      (iblk m c 0 t) (iblk m c 1 t) (outsAt0 m c (t.val - 1) (Nat.lt_of_le_of_lt (Nat.sub_le _ _) t.isLt)).2)
  rw [e1, ← e2, StepValues.scale_apply, scratch_eq m c t.val t.isLt y]
  unfold mean
  rw [ht]

/-- The 1 × 1 output array with that mean in it. -/
def outArr (c : Dev nD) : Buf (Elt Ideal) ((c : Thread nD τ).loc main_v2) := fun _ => mean m c

/-- The last grid point. -/
abbrev lastPt : Fin cfg0.N := ⟨63, by rw [show cfg0.N = 64 from N_0]; decide⟩

/-- The one write-back, at the last point, writes that array's one block. -/
theorem flushed_eq (c : Dev nD) (t : Fin cfg0.N) (hf : (cfg0.win 2).flush t = true) :
    (dats m 0 c).flushed 2 t = ((cfg0.win 2).blk t).view.read (Elt Ideal) (outArr m c) := by
  have h63 := (flush0_2 t).mp hf
  funext j
  rw [View.read_apply]
  show (dats m 0 c).after 2 t _ = mean m c
  rw [after0_2]
  exact output_last m c t h63 _

/-- That block is the whole array, so the array ends holding the mean. -/
theorem final_out (c : Dev nD) : (dats m 0 c).arrAt 2 cfg0.N = outArr m c :=
  (dats m 0 c).arrAt_eq_of_cover 2 (outArr m c) (flushed_eq m c) fun i =>
    ⟨lastPt, (flush0_2 lastPt).mpr rfl, by
      show i ∈ ((View.whole main_v2).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPt 0 * win0_2.size 0 ≤ (i 0 : Nat)
          ∧ (i 0 : Nat) < win0_2.index lastPt 0 * win0_2.size 0 + win0_2.xsize (grid0.coords lastPt) 0
        rw [show win0_2.index lastPt 0 * win0_2.size 0 = 0 from by decide +kernel,
          show win0_2.xsize (grid0.coords lastPt) 0 = 1 from by decide +kernel]
        omega
      | ⟨1, _⟩ =>
        show win0_2.index lastPt 1 * win0_2.size 1 ≤ (i 1 : Nat)
          ∧ (i 1 : Nat) < win0_2.index lastPt 1 * win0_2.size 1 + win0_2.xsize (grid0.coords lastPt) 1
        rw [show win0_2.index lastPt 1 * win0_2.size 1 = 0 from by decide +kernel,
          show win0_2.xsize (grid0.coords lastPt) 1 = 1 from by decide +kernel]
        omega⟩

/-- The program's result: the output array re-laid as a scalar. -/
theorem tail_eq (c : Dev nD) :
    Pipeline.afterTail₀ cfgs (dats m) 0 (V0 m) [hostOps1] c main_v3 = fun _ => mean m c := by
  unfold Pipeline.afterTail₀
  show StableHlo.after hostOps1 _ (Proc.devRef .tc main_v3) = _
  after_results
  funext i
  have e := (Pipeline.withArrays_arr spec0 launch0.win.arr_inj c (V0 m c)
    (fun w => (dats m 0 c).arrAt w cfg0.N) 2).trans (final_out m c)
  exact congrFun e _

/-! ## The run, and the mean as a function of the arguments -/

/-- Every weakly fair execution of the program ends with the result at the kernel's mean and the arguments as they
    were. -/
theorem run : θ_run defs (onTc (τ := τ) (main (F := Ideal))) ⟨m, fun _ => 0, ρ⟩ fun r => ∀ c : Dev nD,
      r.2.mem ((c.tc : Thread nD τ).loc main_v3) = (fun _ => mean m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The kernel's mean is the total of all contributions of the arguments as given, from zero, divided by the word of
    2²⁶: its blocks are the blocks of the re-laid arguments, and the block-by-block law applies. -/
theorem mean_eq (c : Dev nD) :
    mean m c
      = Ideal.div (Ideal.ofBits .f32 0x00000000#32
          + ∑ j : S64x1x1024x1024.Idx,
              lossAt (m ((c : Thread nD τ).loc main_arg0) j) (m ((c : Thread nD τ).loc main_arg1) j))
        (Ideal.ofBits .f32 0x4C800000#32) := by
  refine Eq.trans ?_ (blocks_scaled_eq_mean shapeCasts_S64x1x1024x1024_S65536x1024
    (m ((c : Thread nD τ).loc main_arg0)) (m ((c : Thread nD τ).loc main_arg1)))
  unfold mean running
  refine congrArg (· * Ideal.ofBits .f32 0x32800000#32) ?_
  refine (Finset.sum_range (fun k => blockTotal m c k)).trans ?_
  refine Finset.sum_congr rfl fun t _ => ?_
  have hN : cfg0.N = 64 := N_0
  have ht : t.val < cfg0.N := by have := t.isLt; omega
  unfold blockTotal
  rw [dif_pos ht]
  unfold blockSum
  refine Finset.sum_congr rfl fun y _ => ?_
  rw [block0_apply m c ⟨t.val, ht⟩ y, block1_apply m c ⟨t.val, ht⟩ y]
  rfl

end Cert.KernelIdeal.KernelValue

end
-- ==== Proof.RefValue.lean ====
/-
  The reference's result as one function of the argument arrays.

  Read one operation at a time, the reference computes at every index the element's contribution — `1 - 1/(1 + e⁻ˣ)`
  where the target word is 1, the constant 0.1 elsewhere —, adds all of them to zero, and divides by the word of 2²⁶.
-/
import proofs.«158578_j58703613002104_1_alg».proof.Defs
import proofs.«158578_j58703613002104_1_alg».proof.Proof.Gen.ReferenceIdeal.Run
import proofs.«158578_j58703613002104_1_alg».proof.Proof.Gen.ReferenceIdeal.Read
import proofs.«158578_j58703613002104_1_alg».proof.Proof.LossSum

noncomputable section

open Idealize.ShloMosaic
open scoped BigOperators

namespace Cert.ReferenceIdeal.RefValue

open Cert.ReferenceIdeal Cert.ReferenceIdeal.Read Cert.WeightedLoss

/-- The selected array holds, at every index, that element's contribution. -/
theorem contribution_apply (x0 : (⟨S64x1x1024x1024, .f32⟩ : BufTy).Contents (Elt Ideal))
    (x1 : (⟨S64x1x1024x1024, .i32⟩ : BufTy).Contents (Elt Ideal)) (j : S64x1x1024x1024.Idx) :
    val_main_v10 (F := Ideal) x0 x1 j = lossAt (x0 j) (x1 j) := by
  rw [val_main_v10_apply, val_main_v7_apply, val_main_v6_apply, val_main_c_apply, val_main_v9_apply,
    val_main_v8_apply, val_main_cst_1_apply, val_main_v5_apply, val_main_v4_apply, val_main_cst_0_apply,
    val_main_v3_apply, val_main_v2_apply, val_main_cst_apply, val_main_v1_apply, val_main_v0_apply,
    val_main_call0_v0_apply, val_main_cst_2_apply]
  exact lossAt_expanded (x0 j) (x1 j)

/-- The mean as the reference computes it: zero plus every contribution, divided by the word of 2²⁶. -/
def mean (x0 : (⟨S64x1x1024x1024, .f32⟩ : BufTy).Contents (Elt Ideal))
    (x1 : (⟨S64x1x1024x1024, .i32⟩ : BufTy).Contents (Elt Ideal)) : EReal :=
  Ideal.div (Ideal.ofBits .f32 0x00000000#32 + ∑ j : S64x1x1024x1024.Idx, lossAt (x0 j) (x1 j))
    (Ideal.ofBits .f32 0x4C800000#32)

/-- The reference's result is that mean, at its one index. -/
theorem result_eq (x0 : (⟨S64x1x1024x1024, .f32⟩ : BufTy).Contents (Elt Ideal))
    (x1 : (⟨S64x1x1024x1024, .i32⟩ : BufTy).Contents (Elt Ideal)) :
    val_main_v12 (F := Ideal) x0 x1 = fun _ => mean x0 x1 := by
  funext i
  rw [val_main_v12_apply, val_main_v11_apply, val_main_cst_3_apply, val_main_cst_4_apply]
  exact congrArg
    (fun s => Ideal.div (Ideal.ofBits .f32 0x00000000#32 + s) (Ideal.ofBits .f32 0x4C800000#32))
    (Finset.sum_congr rfl fun j _ => contribution_apply x0 x1 j)

end Cert.ReferenceIdeal.RefValue

end
-- ==== Proof.lean ====
/-
  A weighted loss and its mean, computed two ways.

  Every element of a 64 × 1 × 1024 × 1024 array contributes `1 - σ(x)` where its integer target is 1 and the constant
  0.1 elsewhere, σ the logistic function. The reference adds all 2²⁶ contributions to zero and divides by 2²⁶. The kernel
  re-lays both arrays as 65536 rows of 1024, walks 64 blocks of 1024 rows, keeps the running total of the blocks'
  contributions in a one-element scratch buffer (zeroed at the first block), and after the last block writes the total
  times 2⁻²⁶ into its 1 × 1 output, which the program re-lays as a scalar.

  On the extended reals the two are equal for every input:
    · the logistic function as one operation is, by definition, `1 / (1 + e⁻ˣ)`, the reference's spelling;
    · re-laying an array is a bijection of its indices, and every row lies in exactly one block, so the sum of the block
      totals is the sum over the whole array (addition of extended reals is commutative and associative);
    · the word the kernel multiplies by denotes exactly 2⁻²⁶, and dividing by the real 2²⁶ is multiplying by its
      reciprocal on every extended real.
  No step needs the inputs finite, so the precondition is never opened. The idealized kernel is the kernel's own text
  read at the extended reals: there is nothing to preserve.

  The three frames are the generated ones (the reference's is its run with the result dropped).
-/
import proofs.«158578_j58703613002104_1_alg».proof.Defs
import proofs.«158578_j58703613002104_1_alg».proof.Proof.Gen.Kernel
import proofs.«158578_j58703613002104_1_alg».proof.Proof.Gen.Kernel.Frame
import proofs.«158578_j58703613002104_1_alg».proof.Proof.Gen.KernelIdeal
import proofs.«158578_j58703613002104_1_alg».proof.Proof.Gen.KernelIdeal.Frame
import proofs.«158578_j58703613002104_1_alg».proof.Proof.Gen.ReferenceIdeal
import proofs.«158578_j58703613002104_1_alg».proof.Proof.Gen.ReferenceIdeal.Run
import proofs.«158578_j58703613002104_1_alg».proof.Proof.Gen.ReferenceIdeal.Read
import proofs.«158578_j58703613002104_1_alg».proof.Proof.Gen.Pre_finite_inputs
import proofs.«158578_j58703613002104_1_alg».proof.Proof.KernelValue
import proofs.«158578_j58703613002104_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel's run ends at its mean and the reference's at its own; the two means are the
    same extended real. -/
theorem algebraic : Cert.algebraic_KernelIdeal_ReferenceIdeal := by
  intro m ρ m' ρ' _ hagree
  refine ⟨fun c => fun _ => Cert.KernelIdeal.KernelValue.mean m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2]
  funext _
  exact (Cert.KernelIdeal.KernelValue.mean_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
